-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S800000x2 : Shape := ⟨2, ![800000, 2]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2x50000x128 .f32) (main_arg1 : IVec S800000x2 32) (main_arg2 : FVec F S128x128 .f32) (main_arg3 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x50000x128 : Shape := ⟨3, ![2, 50000, 128]⟩
abbrev S800000x2 : Shape := ⟨2, ![800000, 2]⟩
abbrev S128x128 : Shape := ⟨2, ![128, 128]⟩
abbrev S128 : Shape := ⟨1, ![128]⟩
abbrev S800000x1 : Shape := ⟨2, ![800000, 1]⟩
abbrev S800000 : Shape := ⟨1, ![800000]⟩
abbrev S50000x2x128 : Shape := ⟨3, ![50000, 2, 128]⟩
abbrev S50000x256 : Shape := ⟨2, ![50000, 256]⟩
abbrev S_ : Shape := ⟨0, ![]⟩
abbrev S800000x256 : Shape := ⟨2, ![800000, 256]⟩
abbrev S50000 : Shape := ⟨1, ![50000]⟩
abbrev S50000x1 : Shape := ⟨2, ![50000, 1]⟩
abbrev S1x5000x128 : Shape := ⟨3, ![1, 5000, 128]⟩
abbrev S5000x1 : Shape := ⟨2, ![5000, 1]⟩
abbrev S5000x128 : Shape := ⟨2, ![5000, 128]⟩
abbrev S1x128 : Shape := ⟨2, ![1, 128]⟩

abbrev nBuf : Space → Nat
  | .hbm => 54
  | .vmem => 8
  | .smem => 0
  | _ => 0

abbrev bufTy : (tb : Table) → Fin (tcTables nBuf tb) → BufTy
  | .hbm, ⟨0, _⟩ => ⟨S2x50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000x2x128, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S50000x256, .f32⟩
  | .hbm, ⟨30, _⟩ => ⟨S50000x2x128, .f32⟩
  | .hbm, ⟨31, _⟩ => ⟨S2x50000x128, .f32⟩
  | .hbm, ⟨32, _⟩ => ⟨S_, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S_, .f32⟩
  | .hbm, ⟨43, _⟩ => ⟨S800000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S128x128, .bf16⟩
  | .hbm, ⟨53, _⟩ => ⟨S2x50000x128, .f32⟩
  | .local _ .vmem, ⟨0, _⟩ => ⟨S1x5000x128, .f32⟩
  | .local _ .vmem, ⟨1, _⟩ => ⟨S1x5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S128, .f32⟩
  | .local _ .vmem, ⟨6, _⟩ => ⟨S1x5000x128, .f32⟩
  | .local _ .vmem, ⟨7, _⟩ => ⟨S1x5000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  transposes_S2x50000x128_S50000x2x128_1_0_2 : S2x50000x128.Transposes [1, 0, 2] S50000x2x128
  shapeCasts_S50000x2x128_S50000x256 : S50000x2x128.ShapeCasts S50000x256
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S_S50000 : S_.BroadcastsInDim S50000 (![] : Fin 0 → Fin S50000.rank)
  shapeCasts_S50000_S50000x1 : S50000.ShapeCasts S50000x1
  bitsLt_bf16_f32 : FTy.bits .bf16 < FTy.bits .f32
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S1x5000x128 : S5000x128.ShapeCasts S1x5000x128
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x50000x128.size a
  hwx0_0 : ∀ i : grid0.Coords, EltTy.bits .f32 = 32 ∨ (Rect.block (s := S2x50000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x128.size a ≤ S2x50000x128.size a
  hwx0_4 : ∀ i : grid0.Coords, EltTy.bits .f32 = 32 ∨ (Rect.block (s := S2x50000x128) S1x5000x128.size (cc0_transform_4 i) (hinb0_4 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S800000x2 : Shape := ⟨2, ![800000, 2]⟩
abbrev S128x128 : Shape := ⟨2, ![128, 128]⟩
abbrev S128 : Shape := ⟨1, ![128]⟩
abbrev S800000x1 : Shape := ⟨2, ![800000, 1]⟩
abbrev S800000 : Shape := ⟨1, ![800000]⟩
abbrev S_ : Shape := ⟨0, ![]⟩
abbrev S2x800000x128 : Shape := ⟨3, ![2, 800000, 128]⟩
abbrev S50000 : Shape := ⟨1, ![50000]⟩
abbrev S1x50000x1 : Shape := ⟨3, ![1, 50000, 1]⟩
abbrev S1x1x128 : Shape := ⟨3, ![1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S_, .f32⟩
  | .hbm, ⟨9, _⟩ => ⟨S2x50000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S2x800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S2x50000x128, .f32⟩
  | .hbm, ⟨28, _⟩ => ⟨S_, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S_, .f32⟩
  | .hbm, ⟨39, _⟩ => ⟨S800000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S1x50000x1, .f32⟩
  | .hbm, ⟨45, _⟩ => ⟨S2x50000x128, .f32⟩
  | .hbm, ⟨46, _⟩ => ⟨S2x50000x128, .f32⟩
  | .hbm, ⟨47, _⟩ => ⟨S2x50000x128, .f32⟩
  | .hbm, ⟨48, _⟩ => ⟨S1x1x128, .f32⟩
  | .hbm, ⟨49, _⟩ => ⟨S2x50000x128, .f32⟩
  | .hbm, ⟨50, _⟩ => ⟨S2x50000x128, .f32⟩
  | .hbm, ⟨51, _⟩ => ⟨S_, .f32⟩
  | .hbm, ⟨52, _⟩ => ⟨S2x50000x128, .f32⟩
  | .hbm, ⟨53, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S2x50000x128 : S_.BroadcastsInDim S2x50000x128 (![] : Fin 0 → Fin S2x50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S1x50000x1_1 : S50000.BroadcastsInDim S1x50000x1 (![1] : Fin 1 → Fin S1x50000x1.rank)
  bcast_S1x50000x1_S2x50000x128_0_1_2 : S1x50000x1.BroadcastsInDim S2x50000x128 (![0, 1, 2] : Fin 3 → Fin S2x50000x128.rank)
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  gather_S2x50000x128_S800000x1_S2x800000x128_02_1_n_n_1_1_21128_wf : GatherDims.WF S2x50000x128 S800000x1 S2x800000x128 [0, 2] [1] [] [1] [] 1 ![2, 1, 128]
  scatter_S2x50000x128_S800000x1_S2x800000x128_02_1_1_1_wf : ScatterDims.WF S2x50000x128 S800000x1 S2x800000x128 [0, 2] [1] [1] 1
  scatter_S50000_S800000x1_S800000_n_0_0_1_wf : ScatterDims.WF S50000 S800000x1 S800000 [] [0] [0] 1
  dot_S2x50000x128_S128x128_S2x50000x128_2_0_01_1_n_n_wf : DotDims.WF S2x50000x128 S128x128 S2x50000x128 [2] [0] [0, 1] [1] [] []

variable [Facts₀]

def gather_S2x50000x128_S800000x1_S2x800000x128_02_1_n_n_1_1_21128 : GatherDims S2x50000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x50000x128_S800000x1_S2x800000x128_02_1_n_n_1_1_21128_wf
def scatter_S2x50000x128_S800000x1_S2x800000x128_02_1_1_1 : ScatterDims S2x50000x128 S800000x1 S2x800000x128 where
  updateWindowDims := [0, 2]
  insertedWindowDims := [1]
  scatterDimsToOperandDims := [1]
  indexVectorDim := 1
  wf := scatter_S2x50000x128_S800000x1_S2x800000x128_02_1_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2x50000x128_S128x128_S2x50000x128_2_0_01_1_n_n : DotDims S2x50000x128 S128x128 S2x50000x128 where
  lhsContracting := [2]
  rhsContracting := [0]
  lhsNonContracting := [0, 1]
  rhsNonContracting := [1]
  lhsBatch := []
  rhsBatch := []
  wf := dot_S2x50000x128_S128x128_S2x50000x128_2_0_01_1_n_n_wf

class Facts : Prop extends Facts₀ where

variable [Facts]
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelBody.lean ====
/-
  The kernel body's arithmetic at one element of its output block.

  One grid point holds a block of 5000 nodes of one batch: x0 the aggregated features [1, 5000, 128], x1 the column of
  reciprocal degrees [5000, 1], x2 the weight matrix [128, 128], x3 the bias [128].  The body scales each row of
  x0 by that row's reciprocal degree, multiplies by the weights into a zero accumulator, adds the bias to every row
  and clips below at zero.  On the extended reals the changes of float format do nothing, the matrix product into a zero
  accumulator is the plain sum over the contracted coordinate, and so the element (u, p, q) of the block is

      max( (sum over k of x0[0, p, k] * x1[p, 0] * x2[k, q]) + x3[q], 0 ).
-/
import proofs.«153722_j11914239279237_2_alg».proof.Proof.Gen.KernelIdeal.Skeleton
import proofs.«153722_j11914239279237_2_alg».proof.Proof.LibPlainProduct
import proofs.«153722_j11914239279237_2_alg».proof.Proof.LibColumnLayout
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The body's matrix product contracts the left operand's columns against the right operand's rows. -/
abbrev D := dot_S5000x128_S128x128_S5000x128_1_0_0_1_n_n

theorem D_rank : D.contr.rank = 1 := rfl
theorem D_size : D.contr.size ⟨0, by decide⟩ = 128 := rfl

theorem D_l0 (j : S5000x128.Idx) (q : D.contr.Idx) : (D.lhsIdx j q (0 : Fin 2)).val = (j (0 : Fin 2)).val := by
  unfold DotDims.lhsIdx
  rw [dif_neg (show ¬(0 : Fin S5000x128.rank) ∈ D.lhsBatch by decide),
    dif_pos (show (0 : Fin S5000x128.rank) ∈ D.lhsNonContracting by decide)]
  rfl
theorem D_l1 (j : S5000x128.Idx) (q : D.contr.Idx) : (D.lhsIdx j q (1 : Fin 2)).val = (q ⟨0, by decide⟩).val :=
  D.lhsIdx_val_of_single rfl j q
theorem D_r0 (j : S5000x128.Idx) (q : D.contr.Idx) : (D.rhsIdx j q (0 : Fin 2)).val = (q ⟨0, by decide⟩).val :=
  D.rhsIdx_val_of_single rfl j q
theorem D_r1 (j : S5000x128.Idx) (q : D.contr.Idx) : (D.rhsIdx j q (1 : Fin 2)).val = (j (1 : Fin 2)).val := by
  unfold DotDims.rhsIdx
  rw [dif_neg (show ¬(1 : Fin S128x128.rank) ∈ D.rhsBatch by decide),
    dif_pos (show (1 : Fin S128x128.rank) ∈ D.rhsNonContracting by decide)]
  rfl

/-- Element (u, p, q) of the block the body stores. -/
theorem payload_apply (x0 : FVec Ideal S1x5000x128 .f32) (x1 : FVec Ideal S5000x1 .f32) (x2 : FVec Ideal S128x128 .bf16)
    (x3 : FVec Ideal S128 .f32) (u : Fin 1) (p : Fin 5000) (q : Fin 128) :
    k0_pay1 (F := Ideal) x0 x1 x2 x3 (ix3 u p q)
      = max ((∑ k : Fin 128, x0 (ix3 (0 : Fin 1) p k) * x1 (ix2 p (0 : Fin 1)) * x2 (ix2 k q)) + x3 (ix1 q)) 0 := by
  unfold k0_pay1
  refine (shapeCast_ab_1ab_apply _ shapeCasts_S5000x128_S1x5000x128 u p q).trans ?_
  rw [maximumf_apply, addf_apply, broadcast_apply]
  rw [show ∀ (l : FVec Ideal S5000x128 .bf16) (r : FVec Ideal S128x128 .bf16),
      matmul D none l r (constant (F := Ideal) S5000x128 .f32 0x00000000#32) (ix2 p q)
        = ∑ k : Fin 128, l (ix2 p k) * r (ix2 k q)
    from fun l r => PlainProduct.matmul_zero_entry D D_rank D_size D_l0 D_l1 D_r0 D_r1 l r p q]
  rw [broadcastTo_1b_ab_apply _ broadcasts_S1x128_S5000x128 p q,
    shapeCast_a_1a_apply _ shapeCasts_S128_S1x128 (0 : Fin 1) q]
  congr 1
  · congr 1
    refine Finset.sum_congr rfl fun k _ => ?_
    rw [truncf_apply, mulf_apply, shapeCast_self,
      ColumnLayout.broadcastTo_a1_ab_apply _ broadcasts_S5000x1_S5000x128 p k, shapeCast_self,
      shapeCast_1ab_ab_apply _ shapeCasts_S1x5000x128_S5000x128 p k]
  · exact Ideal.ofBits_zero_f32

end Cert.KernelIdeal.Body

end
-- ==== Proof.KernelPoint.lean ====
/-
  One grid point's block of the result, as the restriction of one whole-array function.

  The grid has 2 x 10 points; point (b, s) holds rows 5000 s .. 5000 s + 4999 of batch b.  Its output block, its block
  of the aggregate and its block of the reciprocal-degree column sit at the same rows (the column has no batch axis), and
  every point sees the whole weight matrix and the whole bias.  So for ANY four arrays A, I, W, bias: if the body is
  given, at point t, the blocks of those arrays that the printed index maps select, then the block it computes is
  the restriction to the output's block of

      R[b, n, o] = max( (sum over k of A[b, n, k] * I[n, 0] * W[k, o]) + bias[o], 0 ).

  Only index arithmetic is used: an element of a block sits at (block index) * (block size) + (its coordinate) on each
  axis, and the relations between the five index maps are decided over the twenty points.
-/
import proofs.«153722_j11914239279237_2_alg».proof.Proof.Gen.KernelIdeal.Frame
import proofs.«153722_j11914239279237_2_alg».proof.Proof.KernelBody
import Idealize.ShloMosaic.Lib.Pipeline.Value
import Idealize.ShloMosaic.Lib.ValueIdx

set_option maxRecDepth 16384

noncomputable section

namespace Cert.KernelIdeal.Point

open Cert.KernelIdeal Cert.KernelIdeal.Gen Idealize.ShloMosaic Idealize.ShloMosaic.TcCoe Idealize.SL.Sem
open Idealize.ShloMosaic.ValueIdx

/-- The result as one function of the four arrays the region reads. -/
def R (A : FVec Ideal S2x50000x128 .f32) (I : FVec Ideal S50000x1 .f32) (W : FVec Ideal S128x128 .bf16)
    (bias : FVec Ideal S128 .f32) : FVec Ideal S2x50000x128 .f32 := fun i =>
  max ((∑ k : Fin 128, A (ix3 (i 0) (i 1) k) * I (ix2 (i 1) (0 : Fin 1)) * W (ix2 k (i 2))) + bias (ix1 (i 2))) 0

/-- The printed index maps, decided over the twenty points: the aggregate's block moves with the output's, the column's
    block follows the output's row block, the weights and the bias stay put. -/
theorem idx_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = win0_4.index t (1 : Fin 3)
    ∧ win0_1.index t (1 : Fin 2) = 0
    ∧ win0_2.index t (0 : Fin 2) = 0
    ∧ win0_2.index t (1 : Fin 2) = 0
    ∧ win0_3.index t (0 : Fin 1) = 0
    ∧ win0_4.index t (2 : Fin 3) = 0
    ∧ win0_4.index t (0 : Fin 3) ≤ 1
    ∧ win0_4.index t (1 : Fin 3) ≤ 9 :=
  (by decide +kernel : ∀ t : Fin grid0.N, _)

/-- Every (batch, row block) is some point's. -/
theorem idx_onto : ∀ (q0 : Fin 2) (q1 : Fin 10), ∃ t : Fin cfg0.N, win0_4.index t = ![q0.val, q1.val, 0] :=
  (by decide +kernel : ∀ (q0 : Fin 2) (q1 : Fin 10), ∃ t : Fin grid0.N, win0_4.index t = ![q0.val, q1.val, 0])

/-- Where the aggregate's block element (0, p, k) sits in its array, against the output block's element j. -/
theorem emb_agg (t : Fin cfg0.N) (j : S1x5000x128.Idx) (k : Fin 128) :
    ((cfg0.win 0).blk t).view.emb (ix3 (0 : Fin 1) (j 1) k)
      = ix3 ((((cfg0.win 4).blk t).view.emb j) 0) ((((cfg0.win 4).blk t).view.emb j) 1) k := by
  obtain ⟨e0, e1, e2, -, -, -, -, -, -, -, -⟩ := idx_facts t
  have hu : (j 0).val < 1 := (j 0).isLt
  funext a
  apply Fin.ext
  match a with
  | ⟨0, _⟩ =>
    show win0_0.index t (0 : Fin 3) * 1 + 1 * 0 = win0_4.index t (0 : Fin 3) * 1 + 1 * (j 0).val
    omega
  | ⟨1, _⟩ =>
    show win0_0.index t (1 : Fin 3) * 5000 + 1 * (j 1).val = win0_4.index t (1 : Fin 3) * 5000 + 1 * (j 1).val
    omega
  | ⟨2, _⟩ =>
    show win0_0.index t (2 : Fin 3) * 128 + 1 * k.val = k.val
    omega

/-- Where the column's block element (p, 0) sits in its array. -/
theorem emb_inv (t : Fin cfg0.N) (j : S1x5000x128.Idx) :
    ((cfg0.win 1).blk t).view.emb (ix2 (j 1) (0 : Fin 1)) = ix2 ((((cfg0.win 4).blk t).view.emb j) 1) (0 : Fin 1) := by
  obtain ⟨-, -, -, e3, e4, -, -, -, -, -, -⟩ := idx_facts t
  funext a
  apply Fin.ext
  match a with
  | ⟨0, _⟩ =>
    show win0_1.index t (0 : Fin 2) * 5000 + 1 * (j 1).val = win0_4.index t (1 : Fin 3) * 5000 + 1 * (j 1).val
    omega
  | ⟨1, _⟩ =>
    show win0_1.index t (1 : Fin 2) * 1 + 1 * 0 = 0
    omega

/-- The weights' block is the whole matrix; the output element's feature is its own last coordinate. -/
theorem emb_w (t : Fin cfg0.N) (j : S1x5000x128.Idx) (k : Fin 128) :
    ((cfg0.win 2).blk t).view.emb (ix2 k (j 2)) = ix2 k ((((cfg0.win 4).blk t).view.emb j) 2) := by
  obtain ⟨-, -, -, -, -, e5, e6, -, e8, -, -⟩ := idx_facts t
  funext a
  apply Fin.ext
  match a with
  | ⟨0, _⟩ =>
    show win0_2.index t (0 : Fin 2) * 128 + 1 * k.val = k.val
    omega
  | ⟨1, _⟩ =>
    show win0_2.index t (1 : Fin 2) * 128 + 1 * (j 2).val = win0_4.index t (2 : Fin 3) * 128 + 1 * (j 2).val
    omega

/-- The bias's block is the whole vector. -/
theorem emb_bias (t : Fin cfg0.N) (j : S1x5000x128.Idx) :
    ((cfg0.win 3).blk t).view.emb (ix1 (j 2)) = ix1 ((((cfg0.win 4).blk t).view.emb j) 2) := by
  obtain ⟨-, -, -, -, -, -, -, e7, e8, -, -⟩ := idx_facts t
  funext a
  apply Fin.ext
  match a with
  | ⟨0, _⟩ =>
    show win0_3.index t (0 : Fin 1) * 128 + 1 * (j 2).val = win0_4.index t (2 : Fin 3) * 128 + 1 * (j 2).val
    omega

/-- The body's block at a point, element j, is R of the four arrays at the place j sits in the result array:
    for any arrays, given that the body's inputs are their blocks at that point. -/
theorem point_eq (A : FVec Ideal S2x50000x128 .f32) (I : FVec Ideal S50000x1 .f32) (W : FVec Ideal S128x128 .bf16)
    (bias : FVec Ideal S128 .f32) (t : Fin cfg0.N)
    (x0 : FVec Ideal S1x5000x128 .f32) (x1 : FVec Ideal S5000x1 .f32) (x2 : FVec Ideal S128x128 .bf16)
    (x3 : FVec Ideal S128 .f32)
    (h0 : ∀ y : S1x5000x128.Idx, x0 y = A (((cfg0.win 0).blk t).view.emb y))
    (h1 : ∀ y : S5000x1.Idx, x1 y = I (((cfg0.win 1).blk t).view.emb y))
    (h2 : ∀ y : S128x128.Idx, x2 y = W (((cfg0.win 2).blk t).view.emb y))
    (h3 : ∀ y : S128.Idx, x3 y = bias (((cfg0.win 3).blk t).view.emb y))
    (j : S1x5000x128.Idx) :
    k0_pay1 (F := Ideal) x0 x1 x2 x3 j = R A I W bias (((cfg0.win 4).blk t).view.emb j) := by
  have hj : j = ix3 (j 0) (j 1) (j 2) := eq_ix3 j
  refine (congrArg (k0_pay1 (F := Ideal) x0 x1 x2 x3) hj).trans ?_
  refine (Body.payload_apply x0 x1 x2 x3 (j 0) (j 1) (j 2)).trans ?_
  unfold R
  rw [h3, h1, emb_bias t j, emb_inv t j]
  refine congrArg (fun s => max (s + bias (ix1 ((((cfg0.win 4).blk t).view.emb j) 2))) 0) ?_
  refine Finset.sum_congr rfl fun k _ => ?_
  rw [h0, h2, emb_agg t j k, emb_w t j k]
  rfl

end Cert.KernelIdeal.Point

end
-- ==== Proof.KernelValue.lean ====
/-
  From the blocks the grid points write to the whole result array.

  What a point writes back is its block of ONE function R of the four arrays the region reads (the per-point equation,
  used at the arrays as the region finds them), and the twenty blocks tile the array: row n of batch b is in the block
  of the point (b, n / 5000).  So after the run the result array is R of those four arrays, everywhere.
-/
import proofs.«153722_j11914239279237_2_alg».proof.Proof.Gen.KernelIdeal.Value
import proofs.«153722_j11914239279237_2_alg».proof.Proof.KernelPoint
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Point
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- An input block at a point reads its array at the place the block's element sits (window 0: the aggregate). -/
theorem iblk0_apply (c : Dev nD) (t : Fin cfg0.N) (y : S1x5000x128.Idx) :
    iblk m c 0 t y = V m c main_v22 (((cfg0.win 0).blk t).view.emb y) := by
  unfold iblk
  rw [View.read_apply]
  exact cast_eq _ _

/-- Window 1: the reciprocal-degree column. -/
theorem iblk1_apply (c : Dev nD) (t : Fin cfg0.N) (y : S5000x1.Idx) :
    iblk m c 1 t y = V m c main_v36 (((cfg0.win 1).blk t).view.emb y) := by
  unfold iblk
  rw [View.read_apply]
  exact cast_eq _ _

/-- Window 2: the weights. -/
theorem iblk2_apply (c : Dev nD) (t : Fin cfg0.N) (y : S128x128.Idx) :
    iblk m c 2 t y = V m c main_v37 (((cfg0.win 2).blk t).view.emb y) := by
  unfold iblk
  rw [View.read_apply]
  exact cast_eq _ _

/-- Window 3: the bias. -/
theorem iblk3_apply (c : Dev nD) (t : Fin cfg0.N) (y : S128.Idx) :
    iblk m c 3 t y = V m c main_arg3 (((cfg0.win 3).blk t).view.emb y) := by
  unfold iblk
  rw [View.read_apply]
  exact cast_eq _ _

/-- The output's blocks are never cut at the array's end: an element of the block written back is the same element of the
    block the body stored. -/
theorem xinj_eq (t : Fin cfg0.N) (j : S1x5000x128.Idx) : (cfg0.win 4).xinj (grid0.coords t) j = j :=
  funext fun _ => Fin.ext rfl

/-- What a point writes back is its block of the one function. -/
theorem flushed_eq (c : Dev nD) (t : Fin cfg0.N) :
    (dats m 0 c).flushed 4 t
      = ((cfg0.win 4).blk t).view.read (Elt Ideal)
          (R (V m c main_v22) (V m c main_v36) (V m c main_v37) (V m c main_arg3)) := by
  rw [Value.flushed4]
  unfold out0_4
  rw [View.canon_unit_zero hz3]
  simp only [View.ld_unit_zero (S := S1x5000x128) hz3, View.ld_unit_zero (S := S5000x1) hz2,
    View.ld_unit_zero (S := S128x128) hz2, View.ld_unit_zero (S := S128) hz1]
  funext j
  rw [View.read_apply]
  refine (point_eq (V m c main_v22) (V m c main_v36) (V m c main_v37) (V m c main_arg3) t
    (iblk m c 0 t) (iblk m c 1 t) (iblk m c 2 t) (iblk m c 3 t)
    (iblk0_apply m c t) (iblk1_apply m c t) (iblk2_apply m c t) (iblk3_apply m c t)
    ((cfg0.win 4).xinj (grid0.coords t) j)).trans ?_
  rw [xinj_eq t j]
  exact (cast_eq _ _).symm

/-- An index of the array is in a point's block iff each coordinate is in the block's range on its axis. -/
theorem mem_blk (t : Fin cfg0.N) (i : S2x50000x128.Idx) :
    i ∈ ((cfg0.win 4).blk t).view.set ↔ ∀ a : Fin 3, win0_4.index t a * S1x5000x128.size a ≤ (i a).val
      ∧ (i a).val < win0_4.index t a * S1x5000x128.size a + S1x5000x128.size a := by
  show i ∈ ((View.whole main_v38).slice (win0_4.rect t)).set ↔ _
  rw [View.set_slice_whole, Rect.mem_set_unit]
  exact Iff.rfl

/-- The blocks tile the array: row n of batch b is in the block of the point (b, n / 5000). -/
theorem cover (i : S2x50000x128.Idx) :
    ∃ t : Fin cfg0.N, (cfg0.win 4).flush t = true ∧ i ∈ ((cfg0.win 4).blk t).view.set := by
  have hi0 : (i 0).val < 2 := (i 0).isLt
  have hi1 : (i 1).val < 50000 := (i 1).isLt
  have hi2 : (i 2).val < 128 := (i 2).isLt
  obtain ⟨t, ht⟩ := idx_onto ⟨(i 0).val, hi0⟩ ⟨(i 1).val / 5000, by omega⟩
  have q0 : win0_4.index t (0 : Fin 3) = (i 0).val := congrFun ht 0
  have q1 : win0_4.index t (1 : Fin 3) = (i 1).val / 5000 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 5000 ≤ (i 1).val ∧ (i 1).val < win0_4.index t (1 : Fin 3) * 5000 + 5000
    omega
  | ⟨2, _⟩ =>
    show win0_4.index t (2 : Fin 3) * 128 ≤ (i 2).val ∧ (i 2).val < win0_4.index t (2 : Fin 3) * 128 + 128
    omega

/-- The result array after the run: the one function of the four arrays the region reads. -/
theorem final (c : Dev nD) :
    (dats m 0 c).arrAt 4 cfg0.N = R (V m c main_v22) (V m c main_v36) (V m c main_v37) (V m c main_arg3) :=
  (dats m 0 c).arrAt_eq_of_cover 4 _ (fun t _ => flushed_eq m c t) cover

end Cert.KernelIdeal.Whole

end
-- ==== Proof.LibGatherRows.lean ====
/-
  A host gather of whole rows, read at one element.

  Two layouts of the same indexing x[idx] along one axis.  For a matrix of shape [N, C] and start indices of shape
  [E, 1] (one row number per result row), the result [E, C] holds at (e, c) the operand's element (r, c), where r is
  the start index of e read as a signed integer and clamped into [0, N - 1].  For a rank-3 array of shape [B, N, C]
  gathered along its MIDDLE axis (x[:, idx]), the result [B, E, C] holds at (b, e, c) the operand's element (b, r, c)
  with the same r.  The clamp is the gather's own: a start index below zero reads row 0, one past the end reads the
  last row.
-/
import Idealize.ShloMosaic.PureOps.ShapeOps
import Idealize.ShloMosaic.Lib.ValueIdx

namespace Cert.GatherRows

open Idealize.ShloMosaic Idealize.ShloMosaic.ValueIdx

variable {α : Type} {B N E C w : Nat}

/-- The row a start index names: read signed, clamped into [0, N - 1]. -/
def row (hN : 0 < N) (idx : IVec ⟨2, ![E, 1]⟩ w) (e : Fin E) : Fin N :=
  ⟨min (idx (ix2 e 0)).toInt.toNat (N - 1), by omega⟩

/-! ## Rows of a matrix -/

/-- The dimension numbers of x[idx] on a matrix: axis 0 collapsed and indexed, axis 1 carried over whole. -/
abbrev rowsDims (N E C : Nat) (sb : List (Fin 2))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

theorem rowsDims_apply (hN : 0 < N) (sb : List (Fin 2))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (c : Fin C) :
    Host.gather (rowsDims N E C sb wf) x idx (ix2 e c) = x (ix2 (row hN idx e) c) := by
  unfold Host.gather
  congr 1
  funext a
  refine Fin.ext ?_
  match a with
  | ⟨0, _⟩ =>
    show (rowsDims N E C sb wf).start (ix2 e c) idx 0 + (rowsDims N E C sb wf).batchCoord (ix2 e c) 0
      + (rowsDims N E C sb wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C sb wf).startIndexMap from List.mem_singleton.mpr rfl)]
    have hsi : (rowsDims N E C sb wf).siIdx (ix2 e c) ⟨List.idxOf (0 : Fin 2) (rowsDims N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C sb wf).start (ix2 e c) idx 1 + (rowsDims N E C sb wf).batchCoord (ix2 e c) 1
      + (rowsDims N E C sb wf).offCoord (ix2 e c) 1 = c.val
    rw [GatherDims.batchCoord_eq_zero _ _ _ List.not_mem_nil]
    have hst : (rowsDims N E C sb wf).start (ix2 e c) idx 1 = 0 := by
      unfold GatherDims.start
      rw [dif_neg (by simp)]
    have hoc : (rowsDims N E C sb wf).offCoord (ix2 e c) 1 = c.val := by
      unfold GatherDims.offCoord
      rw [dif_pos (by simp [GatherDims.sKept, Shape.kept])]
      rfl
    rw [hst, hoc]
    omega

/-- Rows of a matrix gathered: result (e, c) is the operand at (row of e, c). -/
theorem gather_rows2 (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (c : Fin C) :
    Host.gather d x idx (ix2 e c) = x (ix2 (row hN idx e) c) := by
  obtain ⟨od, cs, ob, sb, sm, iv, ss, wf⟩ := d
  simp only at hod hcs hob hsm hiv hss
  subst hod hcs hob hsm hiv hss
  exact rowsDims_apply hN sb wf x idx e c

/-! ## Rows along the middle axis of a rank-3 array -/

/-- The dimension numbers of x[:, idx] on a rank-3 array: axis 1 collapsed and indexed, axes 0 and 2 carried over whole. -/
abbrev midDims (B N E C : Nat) (sb : List (Fin 2))
    (wf : GatherDims.WF ⟨3, ![B, N, C]⟩ ⟨2, ![E, 1]⟩ ⟨3, ![B, E, C]⟩ [0, 2] [1] [] [1] sb 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := sb
  startIndexMap := [1]
  indexVectorDim := 1
  sliceSizes := ![B, 1, C]
  wf := wf

theorem midDims_apply (hN : 0 < N) (sb : List (Fin 2))
    (wf : GatherDims.WF ⟨3, ![B, N, C]⟩ ⟨2, ![E, 1]⟩ ⟨3, ![B, E, C]⟩ [0, 2] [1] [] [1] sb 1 ![B, 1, C])
    (x : (⟨3, ![B, N, C]⟩ : Shape).Idx → α) (idx : IVec ⟨2, ![E, 1]⟩ w) (b : Fin B) (e : Fin E) (c : Fin C) :
    Host.gather (midDims B N E C sb wf) x idx (ix3 b e c) = x (ix3 b (row hN idx e) c) := by
  unfold Host.gather
  congr 1
  funext a
  refine Fin.ext ?_
  match a with
  | ⟨0, _⟩ =>
    show (midDims B N E C sb wf).start (ix3 b e c) idx 0 + (midDims B N E C sb wf).batchCoord (ix3 b e c) 0
      + (midDims B N E C sb wf).offCoord (ix3 b e c) 0 = b.val
    rw [GatherDims.batchCoord_eq_zero _ _ _ List.not_mem_nil]
    have hst : (midDims B N E C sb wf).start (ix3 b e c) idx 0 = 0 := by
      unfold GatherDims.start
      rw [dif_neg (by simp)]
    have hoc : (midDims B N E C sb wf).offCoord (ix3 b e c) 0 = b.val := by
      unfold GatherDims.offCoord
      rw [dif_pos (by simp [GatherDims.sKept, Shape.kept])]
      rfl
    rw [hst, hoc]
    omega
  | ⟨1, _⟩ =>
    show (midDims B N E C sb wf).start (ix3 b e c) idx 1 + (midDims B N E C sb wf).batchCoord (ix3 b e c) 1
      + (midDims B N E C sb wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N E C sb wf).startIndexMap from List.mem_singleton.mpr rfl)]
    have hsi : (midDims B N E C sb wf).siIdx (ix3 b e c) ⟨List.idxOf (1 : Fin 3) (midDims B N E C sb wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  | ⟨2, _⟩ =>
    show (midDims B N E C sb wf).start (ix3 b e c) idx 2 + (midDims B N E C sb wf).batchCoord (ix3 b e c) 2
      + (midDims B N E C sb wf).offCoord (ix3 b e c) 2 = c.val
    rw [GatherDims.batchCoord_eq_zero _ _ _ List.not_mem_nil]
    have hst : (midDims B N E C sb wf).start (ix3 b e c) idx 2 = 0 := by
      unfold GatherDims.start
      rw [dif_neg (by simp)]
    have hoc : (midDims B N E C sb wf).offCoord (ix3 b e c) 2 = c.val := by
      unfold GatherDims.offCoord
      rw [dif_pos (by simp [GatherDims.sKept, Shape.kept])]
      rfl
    rw [hst, hoc]
    omega

/-- Rows gathered along the middle axis of a rank-3 array: result (b, e, c) is the operand at (b, row of e, c). -/
theorem gather_mid3 (hN : 0 < N) (d : GatherDims ⟨3, ![B, N, C]⟩ ⟨2, ![E, 1]⟩ ⟨3, ![B, E, C]⟩)
    (hod : d.offsetDims = [0, 2]) (hcs : d.collapsedSliceDims = [1]) (hob : d.operandBatchingDims = [])
    (hsm : d.startIndexMap = [1]) (hiv : d.indexVectorDim = 1) (hss : d.sliceSizes = ![B, 1, C])
    (x : (⟨3, ![B, N, C]⟩ : Shape).Idx → α) (idx : IVec ⟨2, ![E, 1]⟩ w) (b : Fin B) (e : Fin E) (c : Fin C) :
    Host.gather d x idx (ix3 b e c) = x (ix3 b (row hN idx e) c) := by
  obtain ⟨od, cs, ob, sb, sm, iv, ss, wf⟩ := d
  simp only at hod hcs hob hsm hiv hss
  subst hod hcs hob hsm hiv hss
  exact midDims_apply hN sb wf x idx b e c

end Cert.GatherRows
-- ==== Proof.Spec.lean ====
/-
  The function both programs compute, index by index, on the extended reals.

  A graph of 50000 nodes carries, for each of 2 batches, a feature vector of length 128 per node; 800000 directed edges
  (source, destination) are given as integers.  For an edge e let src e be its source read as a signed integer and
  clamped to a valid node (what a gather does with a start index), and say that e lands on node n when its destination,
  read as a signed integer, is exactly n (what a scatter does: an out-of-range destination lands nowhere).

    agg b n k  =  the sum, over the edges e landing on n, of nodes[b, src e, k]
    deg n      =  (the number of edges landing on n) + 1
    G[b, n, o] =  max( (sum over k of (agg b n k / deg n) * W[k, o]) + bias[o] , 0 )

  The quotient is written agg * deg⁻¹.  One program divides by deg; the other multiplies by the quotient 1 / deg
  computed once per node.  On the extended reals, with the division's convention at a zero divisor, the two agree exactly
  when the divisor is not zero, and deg n is at least 1.  Nothing else about the inputs is used: sums of extended reals
  may be regrouped and reordered freely.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«153722_j11914239279237_2_alg».proof.Proof.LibGatherRows

noncomputable section

namespace Cert.Spec

open Idealize.ShloMosaic Idealize.ShloMosaic.ValueIdx

abbrev SNodes : Shape := ⟨3, ![2, 50000, 128]⟩
abbrev SIdx : Shape := ⟨2, ![800000, 1]⟩
abbrev SW : Shape := ⟨2, ![128, 128]⟩
abbrev SBias : Shape := ⟨1, ![128]⟩

/-- The edges that land on node n: those whose destination, read signed, is n. -/
def into (dst : IVec SIdx 32) (n : Fin 50000) : Finset (Fin 800000) :=
  Finset.univ.filter fun e : Fin 800000 => (dst (ix2 e 0)).toInt = (n.val : ℤ)

/-- The node an edge reads from: its source, read signed and clamped to a valid node. -/
def srcRow (src : IVec SIdx 32) (e : Fin 800000) : Fin 50000 :=
  GatherRows.row (N := 50000) (by decide) src e

/-- The features gathered at the sources of the edges landing on n, summed. -/
def agg (nodes : SNodes.Idx → EReal) (src dst : IVec SIdx 32) (b : Fin 2) (n : Fin 50000) (k : Fin 128) : EReal :=
  ∑ e ∈ into dst n, nodes (ix3 b (srcRow src e) k)

/-- The number of edges landing on n, plus one. -/
def deg (dst : IVec SIdx 32) (n : Fin 50000) : EReal :=
  (∑ _e ∈ into dst n, (1 : EReal)) + 1

/-- The result: the degree-normalized aggregate through the linear layer, the bias added, clipped below at zero. -/
def G (nodes : SNodes.Idx → EReal) (src dst : IVec SIdx 32) (W : SW.Idx → EReal) (bias : SBias.Idx → EReal) :
    SNodes.Idx → EReal := fun i =>
  max ((∑ k : Fin 128, agg nodes src dst (i 0) (i 1) k * (deg dst (i 1))⁻¹ * W (ix2 k (i 2))) + bias (ix1 (i 2))) 0

/-- The degree is positive: a sum of ones is not negative, and one more is added. -/
theorem deg_pos (dst : IVec SIdx 32) (n : Fin 50000) : 0 < deg dst n := by
  unfold deg
  have hs : (0 : EReal) ≤ ∑ _e ∈ into dst n, (1 : EReal) := Finset.sum_nonneg fun _ _ => zero_le_one
  exact lt_of_lt_of_le zero_lt_one (le_add_of_nonneg_left hs)

theorem deg_ne_zero (dst : IVec SIdx 32) (n : Fin 50000) : deg dst n ≠ 0 := (deg_pos dst n).ne'

/-- The reciprocal computed once: one divided by a nonzero degree is its inverse. -/
theorem one_div_deg (dst : IVec SIdx 32) (n : Fin 50000) : Ideal.div 1 (deg dst n) = (deg dst n)⁻¹ := by
  unfold Ideal.div
  rw [if_neg (deg_ne_zero dst n), one_mul]

/-- Dividing by a nonzero degree is multiplying by its inverse. -/
theorem div_deg (dst : IVec SIdx 32) (n : Fin 50000) (a : EReal) : Ideal.div a (deg dst n) = a * (deg dst n)⁻¹ := by
  unfold Ideal.div
  rw [if_neg (deg_ne_zero dst n)]

/-- A scalar constant broadcast to any shape reads, at every index, the scalar. -/
theorem bcastScalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Spec

end
-- ==== Proof.LibScatterRows.lean ====
/-
  A host scatter whose combiner is float addition, read at one element, for the dimension numbers of a segment
  sum over rows: scatter indices of shape [E, 1] (one start coordinate per update row, on operand axis 0), the
  operand's axis 0 inserted, every other axis a window axis carried over unchanged.  At the
  ideal instance the result element (n, rest) is the operand's element plus the sum, over the update rows
  e whose start index is n, of the update element (e, rest).  Three ranks are stated: a vector [N],
  a matrix [N, C] and a rank-3 array [N, 1, C].
-/
import Idealize.ShloMosaic.PureOps.Ideal
import Idealize.ShloMosaic.Lib.ValueIdx

noncomputable section

namespace Cert.ScatterRows

open Idealize.ShloMosaic Idealize.ShloMosaic.ValueIdx

/-- An update index lands on the operand index `i` exactly when, on every operand axis, its start
    coordinate plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h2 := h a
      rw [← hf]
      simp only
      rw [Int.toNat_of_nonneg h2.1]
    · intro hf
      funext a
      apply Fin.ext
      simp only
      rw [hf a]
      exact Int.toNat_natCast _
  · rename_i h
    constructor
    · intro hf
      cases hf
    · intro hf
      exfalso
      apply h
      intro a
      rw [hf a]
      exact ⟨Int.natCast_nonneg _, by exact_mod_cast (i a).isLt⟩

section Rank2
variable {N E C w : Nat}

/-- Matrix case: the scatter-indices position read for an update index is `(row, 0)`. -/
theorem siIdx2 (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Matrix case: an update index lands on `(n, c)` exactly when its row's start index is `n` and its column is `c`. -/
theorem resultIdx2_iff (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w)
    (n : Fin N) (c : Fin C) :
    d.resultIdx? j idx = some (ix2 n c) ↔ (idx (ix2 (j 0) 0)).toInt = (n.val : ℤ) ∧ (j 1).val = c.val := by
  rw [resultIdx?_eq_some_iff, Fin.forall_fin_two]
  have hs := siIdx2 d huw hiw hsd hiv j
  obtain ⟨uw, iw, sd, iv, wf⟩ := d
  simp only at huw hiw hsd hiv
  subst huw hiw hsd hiv
  have s0 : ScatterDims.start ⟨[1], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1], [0], [0], 1, wf⟩ j idx 1 = 0 := by
    unfold ScatterDims.start
    rw [dif_neg (by simp)]
  have w0 : ScatterDims.window ⟨[1], [0], [0], 1, wf⟩ j 0 = 0 := by
    unfold ScatterDims.window
    rw [dif_neg (by simp [ScatterDims.sKept, Shape.kept])]
  have w1 : ScatterDims.window ⟨[1], [0], [0], 1, wf⟩ j 1 = (j 1).val := by
    unfold ScatterDims.window
    rw [dif_pos (by simp [ScatterDims.sKept, Shape.kept])]
    rfl
  rw [s0, s1, w0, w1]
  show (idx (ix2 (j 0) 0)).toInt + ((0 : ℕ) : ℤ) = (n.val : ℤ) ∧ (0 : ℤ) + (((j 1).val : ℕ) : ℤ) = (c.val : ℤ) ↔ _
  constructor
  · rintro ⟨h1, h2⟩
    exact ⟨by omega, by omega⟩
  · rintro ⟨h1, h2⟩
    exact ⟨by omega, by omega⟩

end Rank2

section Rank1
variable {N E w : Nat}

/-- Vector case: the scatter-indices position read for an update index is `(row, 0)`. -/
theorem siIdx1 (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Vector case: an update index lands on `n` exactly when its row's start index is `n`. -/
theorem resultIdx1_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (idx : IVec ⟨2, ![E, 1]⟩ w) (n : Fin N) :
    d.resultIdx? j idx = some (ix1 n) ↔ (idx (ix2 (j 0) 0)).toInt = (n.val : ℤ) := by
  rw [resultIdx?_eq_some_iff, Fin.forall_fin_one]
  have hs := siIdx1 d huw hiw hsd hiv j
  obtain ⟨uw, iw, sd, iv, wf⟩ := d
  simp only at huw hiw hsd hiv
  subst huw hiw hsd hiv
  have s0 : ScatterDims.start ⟨[], [0], [0], 1, wf⟩ j idx 0 = (idx (ix2 (j 0) 0)).toInt := by
    unfold ScatterDims.start
    rw [dif_pos (show _ from List.mem_singleton.2 rfl)]
    exact congrArg (fun t => (idx t).toInt) (hs _)
  have w0 : ScatterDims.window ⟨[], [0], [0], 1, wf⟩ j 0 = 0 := by
    unfold ScatterDims.window
    rw [dif_neg (by simp [ScatterDims.sKept, Shape.kept])]
  rw [s0, w0]
  show (idx (ix2 (j 0) 0)).toInt + ((0 : ℕ) : ℤ) = (n.val : ℤ) ↔ _
  constructor
  · intro h1
    omega
  · intro h1
    omega

end Rank1

section Rank3
variable {N E C w : Nat}

/-- Rank-3 case: the scatter-indices position read for an update index is `(row, 0)`. -/
theorem siIdx3 (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Rank-3 case: an update index lands on `(n, 0, c)` exactly when its row's start index is `n` and its last
    coordinate is `c` (the middle coordinate lives on a unit axis, so it is `0` on both sides). -/
theorem resultIdx3_iff (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (idx : IVec ⟨2, ![E, 1]⟩ w) (n : Fin N) (c : Fin C) :
    d.resultIdx? j idx = some (ix3 n 0 c) ↔ (idx (ix2 (j 0) 0)).toInt = (n.val : ℤ) ∧ (j 2).val = c.val := by
  rw [resultIdx?_eq_some_iff]
  have hs := siIdx3 d huw hiw hsd hiv j
  have hj1 : (j 1).val < 1 := (j 1).isLt
  obtain ⟨uw, iw, sd, iv, wf⟩ := d
  simp only at huw hiw hsd hiv
  subst huw hiw hsd hiv
  have s0 : ScatterDims.start ⟨[1, 2], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1, 2], [0], [0], 1, wf⟩ j idx 1 = 0 := by
    unfold ScatterDims.start
    rw [dif_neg (by simp)]
  have s2 : ScatterDims.start ⟨[1, 2], [0], [0], 1, wf⟩ j idx 2 = 0 := by
    unfold ScatterDims.start
    rw [dif_neg (by simp)]
  have w0 : ScatterDims.window ⟨[1, 2], [0], [0], 1, wf⟩ j 0 = 0 := by
    unfold ScatterDims.window
    rw [dif_neg (by simp [ScatterDims.sKept, Shape.kept])]
  have w1 : ScatterDims.window ⟨[1, 2], [0], [0], 1, wf⟩ j 1 = (j 1).val := by
    unfold ScatterDims.window
    rw [dif_pos (by simp [ScatterDims.sKept, Shape.kept])]
    rfl
  have w2 : ScatterDims.window ⟨[1, 2], [0], [0], 1, wf⟩ j 2 = (j 2).val := by
    unfold ScatterDims.window
    rw [dif_pos (by simp [ScatterDims.sKept, Shape.kept])]
    rfl
  constructor
  · intro h
    have h0 := h 0
    have h2 := h 2
    rw [s0, w0] at h0
    rw [s2, w2] at h2
    have h0' : (idx (ix2 (j 0) 0)).toInt + ((0 : ℕ) : ℤ) = (n.val : ℤ) := h0
    have h2' : (0 : ℤ) + (((j 2).val : ℕ) : ℤ) = (c.val : ℤ) := h2
    exact ⟨by omega, by omega⟩
  · rintro ⟨h0, h2⟩ a
    match a with
    | ⟨0, _⟩ =>
      show ScatterDims.start ⟨[1, 2], [0], [0], 1, wf⟩ j idx 0
        + ((ScatterDims.window ⟨[1, 2], [0], [0], 1, wf⟩ j 0 : ℕ) : ℤ) = (n.val : ℤ)
      rw [s0, w0]
      omega
    | ⟨1, _⟩ =>
      show ScatterDims.start ⟨[1, 2], [0], [0], 1, wf⟩ j idx 1
        + ((ScatterDims.window ⟨[1, 2], [0], [0], 1, wf⟩ j 1 : ℕ) : ℤ) = ((0 : ℕ) : ℤ)
      rw [s1, w1]
      omega
    | ⟨2, _⟩ =>
      show ScatterDims.start ⟨[1, 2], [0], [0], 1, wf⟩ j idx 2
        + ((ScatterDims.window ⟨[1, 2], [0], [0], 1, wf⟩ j 2 : ℕ) : ℤ) = (c.val : ℤ)
      rw [s2, w2]
      omega

end Rank3

/-- Rows scattered into a vector: element `n` gains the updates of the rows whose start index is `n`. -/
theorem scatterAdd_rows1 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  symm
  apply Finset.sum_nbij (fun e => ix1 e)
  · intro e he
    rw [Finset.mem_filter] at he ⊢
    refine ⟨Finset.mem_univ _, ?_⟩
    rw [resultIdx1_iff d huw hiw hsd hiv]
    exact he.2
  · intro e1 _ e2 _ h
    exact congrFun h 0
  · intro j hj
    rw [Finset.mem_coe, Finset.mem_filter, resultIdx1_iff d huw hiw hsd hiv] at hj
    refine ⟨j 0, ?_, ?_⟩
    · exact Finset.mem_coe.2 (Finset.mem_filter.2 ⟨Finset.mem_univ _, hj.2⟩)
    · exact (eq_ix1 j).symm
  · intro e _
    rfl

/-- Rows scattered into a matrix: element `(n, c)` gains column `c` of the rows whose start index is `n`. -/
theorem scatterAdd_rows2 {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  unfold Ideal.hostScatterAdd
  congr 1
  symm
  apply Finset.sum_nbij (fun e => ix2 e c)
  · intro e he
    rw [Finset.mem_filter] at he ⊢
    refine ⟨Finset.mem_univ _, ?_⟩
    rw [resultIdx2_iff d huw hiw hsd hiv]
    exact ⟨he.2, rfl⟩
  · intro e1 _ e2 _ h
    exact congrFun h 0
  · intro j hj
    rw [Finset.mem_coe, Finset.mem_filter, resultIdx2_iff d huw hiw hsd hiv] at hj
    refine ⟨j 0, ?_, ?_⟩
    · exact Finset.mem_coe.2 (Finset.mem_filter.2 ⟨Finset.mem_univ _, hj.2.1⟩)
    · have hc : j 1 = c := Fin.ext hj.2.2
      rw [← hc]
      exact (eq_ix2 j).symm
  · intro e _
    rfl

/-- Rows scattered into a rank-3 array with a unit middle axis: element `(n, 0, c)` gains element `(e, 0, c)`
    of the rows `e` whose start index is `n`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : (⟨3, ![N, 1, C]⟩ : Shape).Idx → EReal) (idx : IVec ⟨2, ![E, 1]⟩ w) (upd : (⟨3, ![E, 1, C]⟩ : Shape).Idx → EReal)
    (n : Fin N) (c : Fin C) :
    Ideal.hostScatterAdd d x idx upd (ix3 n 0 c)
      = x (ix3 n 0 c) + ∑ e ∈ Finset.univ.filter (fun e : Fin E => (idx (ix2 e 0)).toInt = (n.val : ℤ)), upd (ix3 e 0 c) := by
  unfold Ideal.hostScatterAdd
  congr 1
  symm
  apply Finset.sum_nbij (fun e => ix3 e 0 c)
  · intro e he
    rw [Finset.mem_filter] at he ⊢
    refine ⟨Finset.mem_univ _, ?_⟩
    rw [resultIdx3_iff d huw hiw hsd hiv]
    exact ⟨he.2, rfl⟩
  · intro e1 _ e2 _ h
    exact congrFun h 0
  · intro j hj
    rw [Finset.mem_coe, Finset.mem_filter, resultIdx3_iff d huw hiw hsd hiv] at hj
    refine ⟨j 0, ?_, ?_⟩
    · exact Finset.mem_coe.2 (Finset.mem_filter.2 ⟨Finset.mem_univ _, hj.2.1⟩)
    · have hj1 : (j 1).val < 1 := (j 1).isLt
      have hb : j 1 = (0 : Fin 1) := Fin.ext (Nat.lt_one_iff.1 hj1)
      have hc : j 2 = c := Fin.ext hj.2.2
      rw [← hb, ← hc]
      exact (eq_ix3 j).symm
  · intro e _
    rfl

/-! ## The same, stated of the host operation at the ideal instance

The host's accumulating scatter is, at the ideal instance, the exact sum by definition, whatever the shapes; the
three element forms above follow for it. -/

/-- At the ideal instance the host's accumulating scatter is the exact sum. -/
theorem host_scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Rows scattered into a vector by the host operation: element `n` gains the updates of the rows whose start index is `n`. -/
theorem host_scatterAdd_rows1 {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  (congrFun (host_scatterAdd_eq d x idx upd) (ix1 n)).trans (scatterAdd_rows1 d huw hiw hsd hiv x idx upd n)

/-- Rows scattered into a matrix by the host operation: element `(n, c)` gains column `c` of the rows whose start index is `n`. -/
theorem host_scatterAdd_rows2 {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) d x idx upd (ix2 n c)
      = x (ix2 n c) + ∑ e ∈ Finset.univ.filter (fun e : Fin E => (idx (ix2 e 0)).toInt = (n.val : ℤ)), upd (ix2 e c) :=
  (congrFun (host_scatterAdd_eq d x idx upd) (ix2 n c)).trans (scatterAdd_rows2 d huw hiw hsd hiv x idx upd n c)

/-- Rows scattered into a rank-3 array with a unit middle axis by the host operation: element `(n, 0, c)` gains element
    `(e, 0, c)` of the rows `e` whose start index is `n`. -/
theorem host_scatterAdd_rows3 {N E C w : Nat} {φ : FTy} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : FVec Ideal ⟨3, ![N, 1, C]⟩ φ) (idx : IVec ⟨2, ![E, 1]⟩ w) (upd : FVec Ideal ⟨3, ![E, 1, C]⟩ φ) (n : Fin N) (c : Fin C) :
    Host.scatterAdd (F := Ideal) d x idx upd (ix3 n 0 c)
      = x (ix3 n 0 c) + ∑ e ∈ Finset.univ.filter (fun e : Fin E => (idx (ix2 e 0)).toInt = (n.val : ℤ)), upd (ix3 e 0 c) :=
  (congrFun (host_scatterAdd_eq d x idx upd) (ix3 n 0 c)).trans (scatterAdd_rows3 d huw hiw hsd hiv x idx upd n c)

end Cert.ScatterRows

end
-- ==== Proof.KernelHost.lean ====
/-
  What the kernel's program computes before its one region, read at an index.

  The program moves the batch axis of the node features next to the feature axis (a transpose [2, 50000, 128] to
  [50000, 2, 128] and a reshape to [50000, 256]) so that one gather of whole rows and one scatter-add of whole rows serve
  both batches, and then undoes the move.  Column b * 128 + k of the wide layout is (batch b, feature k).  Read at
  (b, n, k), the aggregate is the sum, over the edges landing on n, of the features (b, source row, k): the same
  number the batched layout gives.  The reciprocal degree is the quotient 1 / (count + 1) computed per node and laid out as a
  column.  The index arrays (the edges' columns with a negative entry wrapped around once) are carried as two opaque
  functions of the edge array: nothing here looks inside them.
-/
import proofs.«153722_j11914239279237_2_alg».proof.Proof.Gen.KernelIdeal
import proofs.«153722_j11914239279237_2_alg».proof.Proof.Spec
import proofs.«153722_j11914239279237_2_alg».proof.Proof.LibScatterRows
import proofs.«153722_j11914239279237_2_alg».proof.Proof.LibGatherRows
import proofs.«153722_j11914239279237_2_alg».proof.Proof.LibColumnLayout
import Idealize.ShloMosaic.Lib.ValueLayout
import Idealize.ShloMosaic.Lib.Pipeline.Value

noncomputable section

namespace Cert.KernelIdeal.HostRead

open Cert.KernelIdeal Cert.KernelIdeal.Gen Idealize.ShloMosaic Idealize.ShloMosaic.ValueIdx

variable {α : Type}

/-- Column b * 128 + k of the wide layout. -/
def col (b : Fin 2) (k : Fin 128) : Fin 256 := ⟨b.val * 128 + k.val, by omega⟩

/-- The first two axes of a rank-3 array exchanged: the result at (j, i, k) is the operand at (i, j, k). -/
theorem transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The narrow layout flattened to the wide one: (r, b * 128 + k) holds (r, b, k). -/
theorem widen_apply (x : S50000x2x128.Idx → α) (h : S50000x2x128.ShapeCasts S50000x256) (r : Fin 50000) (b : Fin 2)
    (k : Fin 128) : shapeCast S50000x256 x h (ix2 r (col b k)) = x (ix3 r b k) :=
  shapeCast_apply x h _ _ (by
    rw [Shape.rowMajor_val_three, Shape.rowMajor_val_two]
    show (r.val * 2 + b.val) * 128 + k.val = r.val * 256 + (b.val * 128 + k.val)
    omega)

/-- The wide layout split back into the narrow one: (r, b, k) holds (r, b * 128 + k). -/
theorem narrow_apply (x : S50000x256.Idx → α) (h : S50000x256.ShapeCasts S50000x2x128) (r : Fin 50000) (b : Fin 2)
    (k : Fin 128) : shapeCast S50000x2x128 x h (ix3 r b k) = x (ix2 r (col b k)) :=
  shapeCast_apply x h _ _ (by
    rw [Shape.rowMajor_val_three, Shape.rowMajor_val_two]
    show r.val * 256 + (b.val * 128 + k.val) = (r.val * 2 + b.val) * 128 + k.val
    omega)

/-- The edges' source column as a gather's start indices (a negative entry wrapped around once). -/
def kSrc (edges : IVec S800000x2 32) : IVec S800000x1 32 :=
  broadcastInDim S800000x1 ![0] bcast_S800000_S800000x1_0
    (select (cmpi .slt (shapeCast _ (extractStridedSlice S800000x1 ![0, 0] edges slices_S800000x2_S800000x1_0_0) shapeCasts_S800000x1_S800000)
        (broadcastInDim S800000 ![] bcast_S_S800000 (constantI S_ 32 0#32)))
      (addi (shapeCast _ (extractStridedSlice S800000x1 ![0, 0] edges slices_S800000x2_S800000x1_0_0) shapeCasts_S800000x1_S800000)
        (broadcastInDim S800000 ![] bcast_S_S800000 (constantI S_ 32 50000#32)))
      (shapeCast _ (extractStridedSlice S800000x1 ![0, 0] edges slices_S800000x2_S800000x1_0_0) shapeCasts_S800000x1_S800000))

/-- The edges' destination column as a scatter's indices (a negative entry wrapped around once). -/
def kDst (edges : IVec S800000x2 32) : IVec S800000x1 32 :=
  broadcastInDim S800000x1 ![0] bcast_S800000_S800000x1_0
    (select (cmpi .slt (shapeCast _ (extractStridedSlice S800000x1 ![0, 1] edges slices_S800000x2_S800000x1_0_1) shapeCasts_S800000x1_S800000)
        (broadcastInDim S800000 ![] bcast_S_S800000 (constantI S_ 32 0#32)))
      (addi (shapeCast _ (extractStridedSlice S800000x1 ![0, 1] edges slices_S800000x2_S800000x1_0_1) shapeCasts_S800000x1_S800000)
        (broadcastInDim S800000 ![] bcast_S_S800000 (constantI S_ 32 50000#32)))
      (shapeCast _ (extractStridedSlice S800000x1 ![0, 1] edges slices_S800000x2_S800000x1_0_1) shapeCasts_S800000x1_S800000))

/-- The aggregate as the program computes it: through the wide layout and back. -/
def kAgg (nodes : FVec Ideal S2x50000x128 .f32) (src dst : IVec S800000x1 32) : FVec Ideal S2x50000x128 .f32 :=
  transpose S2x50000x128 [1, 0, 2]
    (shapeCast S50000x2x128
      (Host.scatterAdd (F := Ideal) scatter_S50000x256_S800000x1_S800000x256_1_0_0_1
        (broadcastInDim S50000x256 ![] bcast_S_S50000x256 (constant (F := Ideal) S_ .f32 0x00000000#32)) dst
        (Host.gather gather_S50000x256_S800000x1_S800000x256_1_0_n_n_0_1_1256
          (shapeCast S50000x256 (transpose S50000x2x128 [1, 0, 2] nodes transposes_S2x50000x128_S50000x2x128_1_0_2)
            shapeCasts_S50000x2x128_S50000x256) src))
      shapeCasts_S50000x256_S50000x2x128)
    transposes_S50000x2x128_S2x50000x128_1_0_2

/-- The reciprocal degree as the program computes it: one over (count of landing edges, plus one), as a column. -/
def kInv (dst : IVec S800000x1 32) : FVec Ideal S50000x1 .f32 :=
  shapeCast S50000x1
    (Host.divf (F := Ideal) (broadcastInDim S50000 ![] bcast_S_S50000 (constant (F := Ideal) S_ .f32 0x3F800000#32))
      (addf
        (Host.scatterAdd (F := Ideal) scatter_S50000_S800000x1_S800000_n_0_0_1
          (broadcastInDim S50000 ![] bcast_S_S50000 (constant (F := Ideal) S_ .f32 0x00000000#32)) dst
          (broadcastInDim S800000 ![] bcast_S_S800000 (constant (F := Ideal) S_ .f32 0x3F800000#32)))
        (broadcastInDim S50000 ![] bcast_S_S50000 (constant (F := Ideal) S_ .f32 0x3F800000#32))))
    shapeCasts_S50000_S50000x1

/-- The count of landing edges plus one, before the column layout, at node n. -/
theorem degree_apply (dst : IVec S800000x1 32) (n : Fin 50000) :
    addf
        (Host.scatterAdd (F := Ideal) scatter_S50000_S800000x1_S800000_n_0_0_1
          (broadcastInDim S50000 ![] bcast_S_S50000 (constant (F := Ideal) S_ .f32 0x00000000#32)) dst
          (broadcastInDim S800000 ![] bcast_S_S800000 (constant (F := Ideal) S_ .f32 0x3F800000#32)))
        (broadcastInDim S50000 ![] bcast_S_S50000 (constant (F := Ideal) S_ .f32 0x3F800000#32)) (ix1 n)
      = Spec.deg dst n := by
  rw [addf_apply, ScatterRows.host_scatterAdd_rows1 _ rfl rfl rfl rfl]
  simp only [Spec.bcastScalar_apply, constant_apply, Ideal.ofBits_zero_f32, Ideal.ofBits_one_f32, zero_add]
  rfl

/-- The host's quotient is taken element by element. -/
theorem hostDivf_apply {s : Shape} {φ : FTy} (a b : FVec Ideal s φ) (i : s.Idx) :
    Host.divf (F := Ideal) a b i = Ideal.div (a i) (b i) := rfl

/-- The reciprocal degree column at (n, 0): the inverse of the degree. -/
theorem kInv_apply (dst : IVec S800000x1 32) (n : Fin 50000) (u : Fin 1) :
    kInv dst (ix2 n u) = (Spec.deg dst n)⁻¹ := by
  unfold kInv
  refine (ColumnLayout.shapeCast_a_a1_apply (a := 50000) _ shapeCasts_S50000_S50000x1 n u).trans ?_
  rw [hostDivf_apply, degree_apply, Spec.bcastScalar_apply, constant_apply, Ideal.ofBits_one_f32]
  exact Spec.one_div_deg dst n

/-- The aggregate at (b, n, k): the features (b, source row, k) summed over the edges landing on n. -/
theorem kAgg_apply (nodes : FVec Ideal S2x50000x128 .f32) (src dst : IVec S800000x1 32) (b : Fin 2) (n : Fin 50000)
    (k : Fin 128) : kAgg nodes src dst (ix3 b n k) = Spec.agg nodes src dst b n k := by
  unfold kAgg
  refine (transpose_102_apply _ transposes_S50000x2x128_S2x50000x128_1_0_2 b n k).trans ?_
  refine (narrow_apply _ shapeCasts_S50000x256_S50000x2x128 n b k).trans ?_
  refine (ScatterRows.host_scatterAdd_rows2 _ rfl rfl rfl rfl _ _ _ n (col b k)).trans ?_
  rw [Spec.bcastScalar_apply, constant_apply, Ideal.ofBits_zero_f32, zero_add]
  unfold Spec.agg Spec.into
  refine Finset.sum_congr rfl fun e _ => ?_
  refine (GatherRows.gather_rows2 (N := 50000) (by decide) _ rfl rfl rfl rfl rfl rfl _ src e (col b k)).trans ?_
  refine (widen_apply _ shapeCasts_S50000x2x128_S50000x256 _ b k).trans ?_
  exact transpose_102_apply nodes transposes_S2x50000x128_S50000x2x128_1_0_2 _ b k

end Cert.KernelIdeal.HostRead

end
-- ==== Proof.KernelEntry.lean ====
/-
  The arrays the kernel's region reads, as the region finds them.

  Before the region the program runs its host operations once: it wraps the edge columns' negative entries around,
  aggregates through the wide layout, counts the landing edges, takes the reciprocal, and rounds the weights to the
  matrix unit's input format (on the extended reals, no change).  Each of the three arrays the region reads besides the
  bias is therefore the corresponding composed term of the launch memory's argument arrays.
-/
import proofs.«153722_j11914239279237_2_alg».proof.Proof.Gen.KernelIdeal.Frame
import proofs.«153722_j11914239279237_2_alg».proof.Proof.KernelHost
import Idealize.ShloMosaic.Lib.StableHlo.Run

noncomputable section

namespace Cert.KernelIdeal.Entry

open Cert.KernelIdeal Cert.KernelIdeal.Gen Cert.KernelIdeal.HostRead
open Idealize.ShloMosaic Idealize.ShloMosaic.TcCoe Idealize.SL.Sem Idealize.ShloMosaic.StableHlo

variable (m : (ℓ : Loc nD τ sig) → Buf (Elt Ideal) ℓ)

set_option maxHeartbeats 4000000 in
/-- The aggregate the region reads. -/
theorem V_agg (c : Dev nD) :
    V m c main_v22 = kAgg (m ((c : Thread nD τ).loc main_arg0)) (kSrc (m ((c : Thread nD τ).loc main_arg1)))
      (kDst (m ((c : Thread nD τ).loc main_arg1))) := by
  dsimp only [Gen.V, Gen.hostOps0]
  after_results_simp
  rfl

set_option maxHeartbeats 4000000 in
/-- The reciprocal-degree column the region reads. -/
theorem V_inv (c : Dev nD) : V m c main_v36 = kInv (kDst (m ((c : Thread nD τ).loc main_arg1))) := by
  dsimp only [Gen.V, Gen.hostOps0]
  after_results_simp
  rfl

set_option maxHeartbeats 4000000 in
/-- The weights the region reads: the argument, its format changed. -/
theorem V_w (c : Dev nD) :
    V m c main_v37
      = (truncf .bf16 (m ((c : Thread nD τ).loc main_arg2) : FVec Ideal S128x128 .f32) bitsLt_bf16_f32
          : FVec Ideal S128x128 .bf16) := by
  dsimp only [Gen.V, Gen.hostOps0]
  after_results_simp

end Cert.KernelIdeal.Entry

end
-- ==== Proof.KernelRun.lean ====
/-
  The kernel's run, with its result array named as the specification's function of the arguments.

  The result array is R of the four arrays the region reads; those are the host terms of the argument arrays; and R of
  them is the specification's function: the aggregate read at (b, n, k) is the specification's aggregate, the column read at
  (n, 0) is the inverse of the degree, the weights' change of format is the identity on the extended reals.
-/
import proofs.«153722_j11914239279237_2_alg».proof.Proof.KernelValue
import proofs.«153722_j11914239279237_2_alg».proof.Proof.KernelEntry
import proofs.«153722_j11914239279237_2_alg».proof.Proof.KernelHost
import proofs.«153722_j11914239279237_2_alg».proof.Proof.Spec

noncomputable section

namespace Cert.KernelIdeal.Run

open Cert.KernelIdeal Cert.KernelIdeal.Gen Cert.KernelIdeal.Point Cert.KernelIdeal.HostRead
open Idealize.ShloMosaic Idealize.ShloMosaic.TcCoe Idealize.SL.Sem Idealize.ShloMosaic.ValueIdx

/-- R of the host terms is the specification's function. -/
theorem R_eq_G (nodes : FVec Ideal S2x50000x128 .f32) (src dst : IVec S800000x1 32) (W : FVec Ideal S128x128 .f32)
    (bias : FVec Ideal S128 .f32) :
    R (kAgg nodes src dst) (kInv dst) (truncf .bf16 W bitsLt_bf16_f32) bias = Spec.G nodes src dst W bias := by
  funext i
  unfold R Spec.G
  refine congrArg (fun s => max (s + bias (ix1 (i 2))) 0) (Finset.sum_congr rfl fun k _ => ?_)
  rw [kAgg_apply nodes src dst (i 0) (i 1) k, kInv_apply dst (i 1) (0 : Fin 1), truncf_apply]

variable (m : (ℓ : Loc nD τ sig) → Buf (Elt Ideal) ℓ) (ρ : Dev nD → PrngReg)

/-- The result array after the run is the specification's function of the argument arrays. -/
theorem result (c : Dev nD) :
    (dats m 0 c).arrAt 4 cfg0.N
      = Spec.G (m ((c : Thread nD τ).loc main_arg0)) (kSrc (m ((c : Thread nD τ).loc main_arg1)))
          (kDst (m ((c : Thread nD τ).loc main_arg1))) (m ((c : Thread nD τ).loc main_arg2))
          (m ((c : Thread nD τ).loc main_arg3)) := by
  refine (Whole.final m c).trans ?_
  refine Eq.trans ?_ (R_eq_G (m ((c : Thread nD τ).loc main_arg0)) (kSrc (m ((c : Thread nD τ).loc main_arg1)))
    (kDst (m ((c : Thread nD τ).loc main_arg1))) (m ((c : Thread nD τ).loc main_arg2))
    (m ((c : Thread nD τ).loc main_arg3)))
  rw [Entry.V_agg m c, Entry.V_inv m c, Entry.V_w m c, Gen.V_main_arg3 m c]

/-- Every weakly fair execution of the kernel's program ends with its result array at the specification's function of
    the argument arrays, and the arguments unchanged. -/
theorem run : θ_run defs (onTc (τ := τ) (main (F := Ideal))) ⟨m, fun _ => 0, ρ⟩ fun r => ∀ c : Dev nD,
      r.2.mem ((c : Thread nD τ).loc main_v38)
        = Spec.G (m ((c : Thread nD τ).loc main_arg0)) (kSrc (m ((c : Thread nD τ).loc main_arg1)))
            (kDst (m ((c : Thread nD τ).loc main_arg1))) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (Value.run_blocks m ρ)

end Cert.KernelIdeal.Run

end
-- ==== Proof.LibScatterMiddle.lean ====
/-
  A host scatter whose combiner is float addition, read at one element, when the scattered axis is the MIDDLE axis
  of a rank-3 operand: an operand of shape [B, N, C], scatter indices of shape [E, 1] (one start coordinate per update
  slab, on operand axis 1), updates of shape [B, E, C] whose axes 0 and 2 are window axes carried over unchanged and
  whose axis 1 runs over the scatter indices.  This is what a batched segment sum over the middle axis
  (operand.at[:, idx].add(updates)) lowers to.  At the ideal instance the result element (b, n, c) is the operand's element
  plus the sum, over the update positions e whose start index is n, of the update element (b, e, c); an update whose start
  index is outside [0, N) lands nowhere and contributes to no element.
-/
import Idealize.ShloMosaic.PureOps.Ideal
import Idealize.ShloMosaic.Lib.ValueIdx

noncomputable section

namespace Cert.ScatterMiddle

open Idealize.ShloMosaic Idealize.ShloMosaic.ValueIdx

/-- An update index lands on the operand index i exactly when, on every operand axis, its start coordinate plus its
    window coordinate is i's coordinate (a sum outside the axis's range lands nowhere, so equals no coordinate). -/
theorem lands_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq]
    constructor
    · intro hf a
      rw [← hf]
      exact (Int.toNat_of_nonneg (h a).1).symm
    · intro hf
      funext a
      apply Fin.ext
      show (d.start j idx a + (d.window j a : ℤ)).toNat = (i a).val
      rw [hf a]
      exact Int.toNat_natCast _
  · rw [dif_neg h]
    constructor
    · intro hf
      cases hf
    · intro hf
      exact absurd (fun a => by
        rw [hf a]
        exact ⟨Int.natCast_nonneg _, by exact_mod_cast (i a).isLt⟩) h

variable {B N E C w : Nat}

/-- The scatter-indices position an update index reads its start coordinate from is (its middle coordinate, 0). -/
theorem siIdx_mid (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1) (j : (⟨3, ![B, E, C]⟩ : Shape).Idx) (h0 : 0 < d.scatterDimsToOperandDims.length) :
    d.siIdx j ⟨0, h0⟩ = ix2 (j 1) 0 := by
  obtain ⟨uw, iw, sd, iv, wf⟩ := d
  simp only at huw hiw hsd hiv
  subst huw hiw hsd hiv
  funext b
  match b with
  | ⟨0, _⟩ => rfl
  | ⟨1, _⟩ => rfl

/-- An update index lands on (b, n, c) exactly when its outer coordinate is b, the start index of its middle coordinate
    is n, and its inner coordinate is c. -/
theorem lands_mid_iff (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1) (j : (⟨3, ![B, E, C]⟩ : Shape).Idx) (idx : IVec ⟨2, ![E, 1]⟩ w)
    (b : Fin B) (n : Fin N) (c : Fin C) :
    d.resultIdx? j idx = some (ix3 b n c)
      ↔ (j 0).val = b.val ∧ (idx (ix2 (j 1) 0)).toInt = (n.val : ℤ) ∧ (j 2).val = c.val := by
  rw [lands_iff]
  have hs := siIdx_mid d huw hiw hsd hiv j
  obtain ⟨uw, iw, sd, iv, wf⟩ := d
  simp only at huw hiw hsd hiv
  subst huw hiw hsd hiv
  have s0 : ScatterDims.start ⟨[0, 2], [1], [1], 1, wf⟩ j idx 0 = 0 := by
    unfold ScatterDims.start
    rw [dif_neg (by simp)]
  have s1 : ScatterDims.start ⟨[0, 2], [1], [1], 1, wf⟩ j idx 1 = (idx (ix2 (j 1) 0)).toInt := by
    unfold ScatterDims.start
    rw [dif_pos (show _ from List.mem_singleton.2 rfl)]
    exact congrArg (fun t => (idx t).toInt) (hs _)
  have s2 : ScatterDims.start ⟨[0, 2], [1], [1], 1, wf⟩ j idx 2 = 0 := by
    unfold ScatterDims.start
    rw [dif_neg (by simp)]
  have w0 : ScatterDims.window ⟨[0, 2], [1], [1], 1, wf⟩ j 0 = (j 0).val := by
    unfold ScatterDims.window
    rw [dif_pos (by simp [ScatterDims.sKept, Shape.kept])]
    rfl
  have w1 : ScatterDims.window ⟨[0, 2], [1], [1], 1, wf⟩ j 1 = 0 := by
    unfold ScatterDims.window
    rw [dif_neg (by simp [ScatterDims.sKept, Shape.kept])]
  have w2 : ScatterDims.window ⟨[0, 2], [1], [1], 1, wf⟩ j 2 = (j 2).val := by
    unfold ScatterDims.window
    rw [dif_pos (by simp [ScatterDims.sKept, Shape.kept])]
    rfl
  constructor
  · intro h
    have h0 := h 0
    have h1 := h 1
    have h2 := h 2
    rw [s0, w0] at h0
    rw [s1, w1] at h1
    rw [s2, w2] at h2
    have h0' : (0 : ℤ) + (((j 0).val : ℕ) : ℤ) = (b.val : ℤ) := h0
    have h1' : (idx (ix2 (j 1) 0)).toInt + ((0 : ℕ) : ℤ) = (n.val : ℤ) := h1
    have h2' : (0 : ℤ) + (((j 2).val : ℕ) : ℤ) = (c.val : ℤ) := h2
    exact ⟨by omega, by omega, by omega⟩
  · rintro ⟨h0, h1, h2⟩ a
    match a with
    | ⟨0, _⟩ =>
      show ScatterDims.start ⟨[0, 2], [1], [1], 1, wf⟩ j idx 0
        + ((ScatterDims.window ⟨[0, 2], [1], [1], 1, wf⟩ j 0 : ℕ) : ℤ) = (b.val : ℤ)
      rw [s0, w0]
      omega
    | ⟨1, _⟩ =>
      show ScatterDims.start ⟨[0, 2], [1], [1], 1, wf⟩ j idx 1
        + ((ScatterDims.window ⟨[0, 2], [1], [1], 1, wf⟩ j 1 : ℕ) : ℤ) = (n.val : ℤ)
      rw [s1, w1]
      omega
    | ⟨2, _⟩ =>
      show ScatterDims.start ⟨[0, 2], [1], [1], 1, wf⟩ j idx 2
        + ((ScatterDims.window ⟨[0, 2], [1], [1], 1, wf⟩ j 2 : ℕ) : ℤ) = (c.val : ℤ)
      rw [s2, w2]
      omega

/-- Slabs scattered onto the middle axis: element (b, n, c) gains element (b, e, c) of every update position e whose
    start index is n. -/
theorem scatterAdd_mid3 (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1)
    (x : (⟨3, ![B, N, C]⟩ : Shape).Idx → EReal) (idx : IVec ⟨2, ![E, 1]⟩ w)
    (upd : (⟨3, ![B, E, C]⟩ : Shape).Idx → EReal) (b : Fin B) (n : Fin N) (c : Fin C) :
    Ideal.hostScatterAdd d x idx upd (ix3 b n c)
      = x (ix3 b n c)
        + ∑ e ∈ Finset.univ.filter (fun e : Fin E => (idx (ix2 e 0)).toInt = (n.val : ℤ)), upd (ix3 b e c) := by
  unfold Ideal.hostScatterAdd
  congr 1
  symm
  apply Finset.sum_nbij (fun e => ix3 b e c)
  · intro e he
    rw [Finset.mem_filter] at he ⊢
    refine ⟨Finset.mem_univ _, ?_⟩
    rw [lands_mid_iff d huw hiw hsd hiv]
    exact ⟨rfl, he.2, rfl⟩
  · intro e1 _ e2 _ h
    exact congrFun h 1
  · intro j hj
    rw [Finset.mem_coe, Finset.mem_filter, lands_mid_iff d huw hiw hsd hiv] at hj
    refine ⟨j 1, ?_, ?_⟩
    · exact Finset.mem_coe.2 (Finset.mem_filter.2 ⟨Finset.mem_univ _, hj.2.2.1⟩)
    · have hb : j 0 = b := Fin.ext hj.2.1
      have hc : j 2 = c := Fin.ext hj.2.2.2
      rw [← hb, ← hc]
      exact (eq_ix3 j).symm
  · intro e _
    rfl

/-- The same, stated of the host operation at the ideal instance (there it is the exact sum by definition). -/
theorem host_scatterAdd_mid3 {φ : FTy} (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1)
    (x : FVec Ideal ⟨3, ![B, N, C]⟩ φ) (idx : IVec ⟨2, ![E, 1]⟩ w) (upd : FVec Ideal ⟨3, ![B, E, C]⟩ φ)
    (b : Fin B) (n : Fin N) (c : Fin C) :
    Host.scatterAdd (F := Ideal) d x idx upd (ix3 b n c)
      = x (ix3 b n c)
        + ∑ e ∈ Finset.univ.filter (fun e : Fin E => (idx (ix2 e 0)).toInt = (n.val : ℤ)), upd (ix3 b e c) :=
  scatterAdd_mid3 d huw hiw hsd hiv x idx upd b n c

end Cert.ScatterMiddle

end
-- ==== Proof.RefValue.lean ====
/-
  The reference program's result is the specification's function of its arguments.

  The reference gathers and scatter-adds along the middle axis of the [2, 50000, 128] layout directly, divides the
  aggregate by the degree broadcast over batches and features, contracts the feature axis against the weights, adds the
  bias along the last axis and takes the maximum with zero.  Read at (b, n, o): the aggregate is the sum over the edges
  landing on n of the features (b, source row, k); the degree is the number of those edges plus one, never zero, so
  the division is the product with its inverse.  The two index arrays are the same two functions of the edge array that the
  kernel's program uses.
-/
import proofs.«153722_j11914239279237_2_alg».proof.Proof.Gen.ReferenceIdeal.Read
import proofs.«153722_j11914239279237_2_alg».proof.Proof.Spec
import proofs.«153722_j11914239279237_2_alg».proof.Proof.KernelHost
import proofs.«153722_j11914239279237_2_alg».proof.Proof.LibScatterRows
import proofs.«153722_j11914239279237_2_alg».proof.Proof.LibScatterMiddle
import proofs.«153722_j11914239279237_2_alg».proof.Proof.LibGatherRows

noncomputable section

namespace Cert.ReferenceIdeal.RefValue

open Cert.ReferenceIdeal Cert.ReferenceIdeal.Read Idealize.ShloMosaic Idealize.ShloMosaic.ValueIdx
open Cert.KernelIdeal.HostRead (kSrc kDst)

/-- The reference's gather indices are the kernel program's. -/
theorem src_eq (x1 : IVec S800000x2 32) : val_main_v10 (F := Ideal) x1 = kSrc x1 := rfl
/-- The reference's scatter indices (for the aggregate) are the kernel program's. -/
theorem dst_eq (x1 : IVec S800000x2 32) : val_main_v17 (F := Ideal) x1 = kDst x1 := rfl
/-- The reference's scatter indices (for the degree) are the kernel program's. -/
theorem dst_eq' (x1 : IVec S800000x2 32) : val_main_v25 (F := Ideal) x1 = kDst x1 := rfl

/-- The aggregate at (b, n, k). -/
theorem agg_apply (x0 : FVec Ideal S2x50000x128 .f32) (x1 : IVec S800000x2 32) (b : Fin 2) (n : Fin 50000) (k : Fin 128) :
    val_main_v18 (F := Ideal) x0 x1 (ix3 b n k) = Spec.agg x0 (kSrc x1) (kDst x1) b n k := by
  unfold val_main_v18
  rw [dst_eq]
  refine (ScatterMiddle.host_scatterAdd_mid3 _ rfl rfl rfl rfl _ _ _ b n k).trans ?_
  have hz : val_main_v4 (F := Ideal) (ix3 b n k) = 0 := by
    rw [val_main_v4_apply, val_main_cst_apply]
    exact Ideal.ofBits_zero_f32
  rw [hz, zero_add]
  unfold Spec.agg Spec.into
  refine Finset.sum_congr rfl fun e _ => ?_
  unfold val_main_v11
  rw [src_eq]
  exact GatherRows.gather_mid3 (N := 50000) (by decide) _ rfl rfl rfl rfl rfl rfl x0 (kSrc x1) b e k

/-- The degree at n. -/
theorem deg_apply (x1 : IVec S800000x2 32) (n : Fin 50000) :
    val_main_v29 (F := Ideal) x1 (ix1 n) = Spec.deg (kDst x1) n := by
  rw [val_main_v29_apply, Ideal.addf_def]
  unfold val_main_v27
  rw [dst_eq']
  rw [ScatterRows.host_scatterAdd_rows1 (N := 50000) (E := 800000) scatter_S50000_S800000x1_S800000_n_0_0_1
    rfl rfl rfl rfl (val_main_v19 (F := Ideal)) (kDst x1) (val_main_v26 (F := Ideal)) n]
  have h19 : val_main_v19 (F := Ideal) (ix1 n) = 0 := by
    rw [val_main_v19_apply, val_main_cst_3_apply]
    exact Ideal.ofBits_zero_f32
  have h26 : ∀ e : Fin 800000, val_main_v26 (F := Ideal) (ix1 e) = 1 := fun e => by
    rw [val_main_v26_apply, val_main_cst_6_apply]
    exact Ideal.ofBits_one_f32
  have h28 : val_main_v28 (F := Ideal) (ix1 n) = 1 := by
    rw [val_main_v28_apply, val_main_cst_7_apply]
    exact Ideal.ofBits_one_f32
  rw [h19, h28, zero_add]
  unfold Spec.deg Spec.into
  exact congrArg (· + (1 : EReal)) (Finset.sum_congr rfl fun e _ => h26 e)

/-- The reference's result is the specification's function of its four arguments. -/
theorem result_eq (x0 : FVec Ideal S2x50000x128 .f32) (x1 : IVec S800000x2 32) (x2 : FVec Ideal S128x128 .f32)
    (x3 : FVec Ideal S128 .f32) :
    val_main_v37 (F := Ideal) x0 x1 x2 x3 = Spec.G x0 (kSrc x1) (kDst x1) x2 x3 := by
  funext i
  obtain ⟨b, n, o, rfl⟩ : ∃ (b : Fin 2) (n : Fin 50000) (o : Fin 128), i = ix3 b n o := ⟨i 0, i 1, i 2, eq_ix3 i⟩
  have hl : ∀ k : Fin 128, lidx_main_v33 (ix3 b n o) k = ix3 b n k := fun k =>
    funext fun a => Fin.ext (by match a with | ⟨0, _⟩ => rfl | ⟨1, _⟩ => rfl | ⟨2, _⟩ => rfl)
  have hr : ∀ k : Fin 128, ridx_main_v33 (ix3 b n o) k = ix2 k o := fun k =>
    funext fun a => Fin.ext (by match a with | ⟨0, _⟩ => rfl | ⟨1, _⟩ => rfl)
  have hd : ∀ k : Fin 128, idx_main_v30 (idx_main_v31 (ix3 b n k)) = ix1 n := fun k =>
    funext fun a => Fin.ext (by match a with | ⟨0, _⟩ => rfl)
  have hb : idx_main_v34 (idx_main_v35 (ix3 b n o)) = ix1 o :=
    funext fun a => Fin.ext (by match a with | ⟨0, _⟩ => rfl)
  have hsum : val_main_v33 (F := Ideal) x0 x1 x2 (ix3 b n o)
      = ∑ k : Fin 128, Spec.agg x0 (kSrc x1) (kDst x1) b n k * (Spec.deg (kDst x1) n)⁻¹ * x2 (ix2 k o) := by
    rw [val_main_v33_apply]
    refine Finset.sum_congr rfl fun k _ => ?_
    rw [hl k, hr k, val_main_v32_apply, Ideal.hostDivf_def, val_main_v31_apply, val_main_v30_apply, hd k, deg_apply,
      agg_apply, Spec.div_deg]
  have hbias : val_main_v35 (F := Ideal) x3 (ix3 b n o) = x3 (ix1 o) := by
    rw [val_main_v35_apply, val_main_v34_apply, hb]
  have hzero : val_main_call0_v0 (F := Ideal) (ix3 b n o) = 0 := by
    rw [val_main_call0_v0_apply, val_main_call0_cst_apply]
    exact Ideal.ofBits_zero_f32
  rw [val_main_v37_apply, Ideal.maximumf_def, val_main_v36_apply, Ideal.addf_def, hsum, hbias, hzero]
  rfl

end Cert.ReferenceIdeal.RefValue

end
-- ==== Proof.lean ====
/-
  A graph layer: aggregate each node's incoming neighbours' features, divide by (in-degree + 1), apply a linear map,
  add a bias and clip below at zero, for 2 batches of 50000 nodes with 128 features and 800000 edges.

  The claim: on the extended reals the kernel's program and the reference compute the same array from the same
  arguments.  Both are

      out[b, n, o] = max( (sum over k of (agg[b, n, k] / deg[n]) * W[k, o]) + bias[o], 0 ),
      agg[b, n, k] = the sum over the edges e landing on n of nodes[b, src e, k],   deg[n] = (number of such edges) + 1,

  with the edges' two integer columns read the same way by both (a negative entry wrapped around once, a gather's start
  index clamped to a valid node, a scatter's out-of-range index landing nowhere).  They differ in three arrangements, none
  of which changes the value:
    - the kernel's program gathers and scatter-adds whole rows of a [50000, 256] re-layout (both batches side by side)
      where the reference works along the middle axis of [2, 50000, 128]: the same sum over the same edges, since a
      sum of extended reals does not depend on the order or the grouping of its terms;
    - the kernel multiplies by the reciprocal 1 / deg computed once per node where the reference divides by deg: equal
      because deg is at least 1, hence not zero (at a zero divisor the two would differ);
    - the kernel's region works block by block over a 2 x 10 grid, rounding its matrix product's inputs to a shorter
      float format: on the extended reals a change of format is the identity, and the blocks tile the result.
  No finiteness of the inputs is used.  The three frames are the generated ones (the reference's is its generated run with the
  result dropped); the idealization rewrote nothing, so there is nothing to preserve.
-/
import proofs.«153722_j11914239279237_2_alg».proof.Defs
import proofs.«153722_j11914239279237_2_alg».proof.Proof.Gen.Kernel
import proofs.«153722_j11914239279237_2_alg».proof.Proof.Gen.Kernel.Skeleton
import proofs.«153722_j11914239279237_2_alg».proof.Proof.Gen.Kernel.Launch
import proofs.«153722_j11914239279237_2_alg».proof.Proof.Gen.Kernel.Points
import proofs.«153722_j11914239279237_2_alg».proof.Proof.Gen.Kernel.Frame
import proofs.«153722_j11914239279237_2_alg».proof.Proof.Gen.KernelIdeal
import proofs.«153722_j11914239279237_2_alg».proof.Proof.Gen.KernelIdeal.Skeleton
import proofs.«153722_j11914239279237_2_alg».proof.Proof.Gen.KernelIdeal.Launch
import proofs.«153722_j11914239279237_2_alg».proof.Proof.Gen.KernelIdeal.Points
import proofs.«153722_j11914239279237_2_alg».proof.Proof.Gen.KernelIdeal.Frame
import proofs.«153722_j11914239279237_2_alg».proof.Proof.Gen.ReferenceIdeal
import proofs.«153722_j11914239279237_2_alg».proof.Proof.Gen.Pre_finite_inputs
import proofs.«153722_j11914239279237_2_alg».proof.Proof.Gen.KernelIdeal.Value
import proofs.«153722_j11914239279237_2_alg».proof.Proof.Gen.ReferenceIdeal.Run
import proofs.«153722_j11914239279237_2_alg».proof.Proof.Gen.ReferenceIdeal.Read
import proofs.«153722_j11914239279237_2_alg».proof.Proof.KernelRun
import proofs.«153722_j11914239279237_2_alg».proof.Proof.RefValue
import Idealize.ShloMosaic.Adequacy
import Idealize.ShloMosaic.Init

noncomputable section

namespace Cert.Proof

open Idealize.ShloMosaic Idealize.SL.Sem

/-- The kernel's program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the specification's function of the arguments as their
    result. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
